-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x64 .f32) (main_arg9 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S64x64 .f32) (main_arg6 : FVec F S64 .f32) (main_arg7 : FVec F S64x64 .f32) (main_arg8 : FVec F S1x64 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S128x64 : Shape := ⟨2, ![128, 64]⟩
abbrev S1600000x64 : Shape := ⟨2, ![1600000, 64]⟩
abbrev S4000 : Shape := ⟨1, ![4000]⟩
abbrev S1x1 : Shape := ⟨2, ![1, 1]⟩

abbrev nBuf : Space → Nat
  | .hbm => 50
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x1, .f32⟩
  | .hbm, ⟨49, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S64x128, .f32⟩
  | .local _ .vmem, ⟨7, _⟩ => ⟨S64, .f32⟩
  | .local _ .vmem, ⟨8, _⟩ => ⟨S64x128, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S1x64, .f32⟩
  | .local _ .vmem, ⟨21, _⟩ => ⟨S1, .f32⟩
  | .local _ .vmem, ⟨22, _⟩ => ⟨S4000x1, .f32⟩
  | .local _ .vmem, ⟨23, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  reduces_S4000x64_S4000 : S4000x64.Reduces [1] S4000
  shapeCasts_S4000_S4000x1 : S4000.ShapeCasts S4000x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  shapeCasts_S100000x1_S100000 : S100000x1.ShapeCasts S100000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x1.size a ≤ S100000x1.size a
  hwx1_8 : ∀ i : grid1.Coords, EltTy.bits .f32 = 32 ∨ (Rect.block (s := S100000x1) S4000x1.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S4000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1600000x64 : Shape := ⟨2, ![1600000, 64]⟩
abbrev S64x1 : Shape := ⟨2, ![64, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S128x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x1, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel's run, with its result named.

  The program is five segments in a row: host operations, the first layer's kernel over 25 blocks of rows, host
  operations, the second layer's kernel over 25 blocks, one last host operation. At every boundary between two
  segments the buffers hold known contents: what the host operations compute from the contents before them, and,
  after a kernel, the arrays its blocks wrote back. So at the end EVERY buffer that outlives the kernels holds the
  last boundary's contents `W5`. In particular the result buffer holds `W5` at the result, and each argument, which
  nothing writes, still holds what it was launched with.
-/
import proofs.«153914_j43576738185797_1_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the kernels at the
    last boundary's contents: the five segments chained from the launch memory, the last thread state read
    against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result named: the result buffer ends at the last boundary's contents there, and every
    argument as launched. -/
theorem run_out : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v31 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩)
    (run_all m ρ)

end Cert.KernelIdeal.Out

end
-- ==== Proof.Spec.lean ====
/-
  The mathematics both programs compute, stated once over the extended reals.

  A graph-convolution layer with mean aggregation takes, for every node r, the sum `msg r` of its in-neighbours'
  feature rows and the number `deg r` of those neighbours, divides the first by `max (deg r) 1`, and returns
    relu ( (msg r / max (deg r) 1) · Wlᵀ + bl + x r · Wrᵀ ),
  one row of H numbers per node. Entry (r, c) of that row depends on row r of `msg`, `deg` and `x` only: the layer
  is local to a row, so it may be computed on any set of rows at a time. The read-out maps a row h r to the one
  number h r · Wcᵀ + bc.

  The aggregated arrays `msg` and `deg` are inputs here: how they are gathered and summed along the edges is the
  same computation in both programs and is never opened. The words for one and zero are kept as words; both sides
  carry the same ones, so they are never evaluated.
-/
import Mathlib
import Idealize.ShloMosaic.PureOps.Ideal
import Idealize.ShloMosaic.Lib.ValueIdx

noncomputable section

namespace Cert.Sage

open Idealize.ShloMosaic Idealize.ShloMosaic.ValueIdx

/-- The float word of one, on the extended reals. -/
abbrev one : EReal := Ideal.ofBits .f32 0x3F800000#32
/-- The float word of zero, on the extended reals. -/
abbrev zero : EReal := Ideal.ofBits .f32 0x00000000#32

/-- Entry (r, c) of a layer: the mean of the neighbours' rows through `Wl`, plus the bias, plus the node's own
    row through `Wr`, cut off below at zero. The two additions are grouped as written. -/
def conv {N D H : ℕ} (msg : (⟨2, ![N, D]⟩ : Shape).Idx → EReal) (deg : (⟨1, ![N]⟩ : Shape).Idx → EReal)
    (x : (⟨2, ![N, D]⟩ : Shape).Idx → EReal) (Wl : (⟨2, ![H, D]⟩ : Shape).Idx → EReal)
    (bl : (⟨1, ![H]⟩ : Shape).Idx → EReal) (Wr : (⟨2, ![H, D]⟩ : Shape).Idx → EReal) (r : Fin N) (c : Fin H) : EReal :=
  max ((∑ k : Fin D, Ideal.div (msg (ix2 r k)) (max (deg (ix1 r)) one) * Wl (ix2 c k)) + bl (ix1 c)
        + ∑ k : Fin D, x (ix2 r k) * Wr (ix2 c k)) zero

/-- The layer as an array: entry j is `conv` at j's two coordinates. -/
def layer {N D H : ℕ} (msg : (⟨2, ![N, D]⟩ : Shape).Idx → EReal) (deg : (⟨1, ![N]⟩ : Shape).Idx → EReal)
    (x : (⟨2, ![N, D]⟩ : Shape).Idx → EReal) (Wl : (⟨2, ![H, D]⟩ : Shape).Idx → EReal)
    (bl : (⟨1, ![H]⟩ : Shape).Idx → EReal) (Wr : (⟨2, ![H, D]⟩ : Shape).Idx → EReal) :
    (⟨2, ![N, H]⟩ : Shape).Idx → EReal :=
  fun j => conv msg deg x Wl bl Wr (j 0) (j 1)

/-- The read-out of row r: the row against the one row of `Wc`, plus the one entry of `bc`. -/
def readout {N H : ℕ} (h : (⟨2, ![N, H]⟩ : Shape).Idx → EReal) (Wc : (⟨2, ![1, H]⟩ : Shape).Idx → EReal)
    (bc : (⟨1, ![1]⟩ : Shape).Idx → EReal) (r : Fin N) : EReal :=
  (∑ k : Fin H, h (ix2 r k) * Wc (ix2 (0 : Fin 1) k)) + bc (ix1 (0 : Fin 1))

/-- A layer followed by the read-out, row r: what the second layer and the classifier compute together. -/
def logit {N D H : ℕ} (msg : (⟨2, ![N, D]⟩ : Shape).Idx → EReal) (deg : (⟨1, ![N]⟩ : Shape).Idx → EReal)
    (x : (⟨2, ![N, D]⟩ : Shape).Idx → EReal) (Wl : (⟨2, ![H, D]⟩ : Shape).Idx → EReal)
    (bl : (⟨1, ![H]⟩ : Shape).Idx → EReal) (Wr : (⟨2, ![H, D]⟩ : Shape).Idx → EReal)
    (Wc : (⟨2, ![1, H]⟩ : Shape).Idx → EReal) (bc : (⟨1, ![1]⟩ : Shape).Idx → EReal) (r : Fin N) : EReal :=
  (∑ k : Fin H, conv msg deg x Wl bl Wr r k * Wc (ix2 (0 : Fin 1) k)) + bc (ix1 (0 : Fin 1))

theorem logit_eq_readout {N D H : ℕ} (msg : (⟨2, ![N, D]⟩ : Shape).Idx → EReal) (deg : (⟨1, ![N]⟩ : Shape).Idx → EReal)
    (x : (⟨2, ![N, D]⟩ : Shape).Idx → EReal) (Wl : (⟨2, ![H, D]⟩ : Shape).Idx → EReal)
    (bl : (⟨1, ![H]⟩ : Shape).Idx → EReal) (Wr : (⟨2, ![H, D]⟩ : Shape).Idx → EReal)
    (Wc : (⟨2, ![1, H]⟩ : Shape).Idx → EReal) (bc : (⟨1, ![1]⟩ : Shape).Idx → EReal) (r : Fin N) :
    logit msg deg x Wl bl Wr Wc bc r = readout (layer msg deg x Wl bl Wr) Wc bc r := rfl

/-- A layer's entry reads row r of its three row-indexed inputs only: two sets of inputs that agree on that row
    (the second possibly of another height, the row sitting at r' there) give the same entry. -/
theorem conv_congr_row {N N' D H : ℕ}
    (msg : (⟨2, ![N, D]⟩ : Shape).Idx → EReal) (deg : (⟨1, ![N]⟩ : Shape).Idx → EReal) (x : (⟨2, ![N, D]⟩ : Shape).Idx → EReal)
    (msg' : (⟨2, ![N', D]⟩ : Shape).Idx → EReal) (deg' : (⟨1, ![N']⟩ : Shape).Idx → EReal) (x' : (⟨2, ![N', D]⟩ : Shape).Idx → EReal)
    (Wl : (⟨2, ![H, D]⟩ : Shape).Idx → EReal) (bl : (⟨1, ![H]⟩ : Shape).Idx → EReal) (Wr : (⟨2, ![H, D]⟩ : Shape).Idx → EReal)
    (r : Fin N) (r' : Fin N') (c : Fin H)
    (hm : ∀ k, msg (ix2 r k) = msg' (ix2 r' k)) (hd : deg (ix1 r) = deg' (ix1 r')) (hx : ∀ k, x (ix2 r k) = x' (ix2 r' k)) :
    conv msg deg x Wl bl Wr r c = conv msg' deg' x' Wl bl Wr r' c := by
  unfold conv
  simp only [hm, hd, hx]

end Cert.Sage

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.KBody.lean ====
/-
  The two kernel bodies, read at one entry of the block they store.

  Both bodies begin alike. From a block of 4000 rows they form the mean `msg / max deg 1` (the degree a column
  [4000, 1] spread along the row), multiply it by the transposed weight `Wl`, add the bias row, add the block's
  own rows times the transposed `Wr`, and cut off below at zero. A change of float format is the identity on the
  extended reals, a product into the zero accumulator is the sum over the contracted axis, and a transposed
  matrix read at (k, c) is the matrix at (c, k); so entry (p, q) of that block is the layer's entry at row p of
  the block's inputs. The first body stores this block. The second multiplies each row by the one row of `Wc`,
  sums along the row and adds the one entry of `bc`: row p of what it stores is the read-out of row p.
-/
import proofs.«153914_j43576738185797_1_alg».proof.Proof.Gen.KernelIdeal.Skeleton
import proofs.«153914_j43576738185797_1_alg».proof.Proof.Spec
import proofs.«153914_j43576738185797_1_alg».proof.Proof.LibDot
import proofs.«153914_j43576738185797_1_alg».proof.Proof.LibColumn
import proofs.«153914_j43576738185797_1_alg».proof.Proof.LibRowSum
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The first layer's products contract axis 1 of the left operand with axis 0 of the right one. -/
theorem plain128 : Cert.LibDot.Plain (M := 4000) (K := 128) (N := 64) dot_S4000x128_S128x64_S4000x64_1_0_0_1_n_n where
  hrank := rfl
  hs := rfl
  hl0 := fun j k => by
    unfold DotDims.lhsIdx
    rw [dif_neg (show ¬(0 : Fin S4000x128.rank) ∈ dot_S4000x128_S128x64_S4000x64_1_0_0_1_n_n.lhsBatch by decide),
      dif_pos (show (0 : Fin S4000x128.rank) ∈ dot_S4000x128_S128x64_S4000x64_1_0_0_1_n_n.lhsNonContracting by decide)]
    rfl
  hl1 := fun j k => dot_S4000x128_S128x64_S4000x64_1_0_0_1_n_n.lhsIdx_val_of_single rfl j k
  hr0 := fun j k => dot_S4000x128_S128x64_S4000x64_1_0_0_1_n_n.rhsIdx_val_of_single rfl j k
  hr1 := fun j k => by
    unfold DotDims.rhsIdx
    rw [dif_neg (show ¬(1 : Fin S128x64.rank) ∈ dot_S4000x128_S128x64_S4000x64_1_0_0_1_n_n.rhsBatch by decide),
      dif_pos (show (1 : Fin S128x64.rank) ∈ dot_S4000x128_S128x64_S4000x64_1_0_0_1_n_n.rhsNonContracting by decide)]
    rfl

/-- The second layer's products contract the same axes. -/
theorem plain64 : Cert.LibDot.Plain (M := 4000) (K := 64) (N := 64) dot_S4000x64_S64x64_S4000x64_1_0_0_1_n_n where
  hrank := rfl
  hs := rfl
  hl0 := fun j k => by
    unfold DotDims.lhsIdx
    rw [dif_neg (show ¬(0 : Fin S4000x64.rank) ∈ dot_S4000x64_S64x64_S4000x64_1_0_0_1_n_n.lhsBatch by decide),
      dif_pos (show (0 : Fin S4000x64.rank) ∈ dot_S4000x64_S64x64_S4000x64_1_0_0_1_n_n.lhsNonContracting by decide)]
    rfl
  hl1 := fun j k => dot_S4000x64_S64x64_S4000x64_1_0_0_1_n_n.lhsIdx_val_of_single rfl j k
  hr0 := fun j k => dot_S4000x64_S64x64_S4000x64_1_0_0_1_n_n.rhsIdx_val_of_single rfl j k
  hr1 := fun j k => by
    unfold DotDims.rhsIdx
    rw [dif_neg (show ¬(1 : Fin S64x64.rank) ∈ dot_S4000x64_S64x64_S4000x64_1_0_0_1_n_n.rhsBatch by decide),
      dif_pos (show (1 : Fin S64x64.rank) ∈ dot_S4000x64_S64x64_S4000x64_1_0_0_1_n_n.rhsNonContracting by decide)]
    rfl

/-- The mean at (p, k): the summed message there over the larger of row p's degree and one. -/
theorem mean_apply {D : ℕ} (v0 : FVec Ideal ⟨2, ![4000, 1]⟩ .f32) (v4 : FVec Ideal ⟨2, ![4000, D]⟩ .f32)
    (h0 : (⟨2, ![4000, 1]⟩ : Shape).ShapeCasts ⟨2, ![4000, 1]⟩) (h4 : (⟨2, ![4000, D]⟩ : Shape).ShapeCasts ⟨2, ![4000, D]⟩)
    (hb : (⟨2, ![4000, 1]⟩ : Shape).Broadcasts ⟨2, ![4000, D]⟩) (p : Fin 4000) (k : Fin D) :
    divf (shapeCast ⟨2, ![4000, D]⟩ v4 h4)
        (broadcastTo ⟨2, ![4000, D]⟩
          (maximumf (shapeCast ⟨2, ![4000, 1]⟩ v0 h0) (broadcast ⟨2, ![4000, 1]⟩ (Scalar.ofBits .f32 0x3F800000#32 : Ideal .f32))) hb)
        (ix2 p k)
      = Ideal.div (v4 (ix2 p k)) (max (v0 (ix2 p (0 : Fin 1))) Cert.Sage.one) := by
  rw [shapeCast_self, shapeCast_self]
  show Ideal.div (v4 (ix2 p k)) (broadcastTo ⟨2, ![4000, D]⟩ _ hb (ix2 p k)) = _
  rw [broadcastTo_a1_ab_apply]
  rfl

/-- Entry (p, q) of the block both bodies form first: the layer's entry at row p of the block's inputs. -/
theorem conv_block {D : ℕ} (d : DotDims ⟨2, ![4000, D]⟩ ⟨2, ![D, 64]⟩ ⟨2, ![4000, 64]⟩) (hd : Cert.LibDot.Plain d)
    (v0 : FVec Ideal ⟨2, ![4000, 1]⟩ .f32) (v4 : FVec Ideal ⟨2, ![4000, D]⟩ .f32) (xb : FVec Ideal ⟨2, ![4000, D]⟩ .bf16)
    (v11 v13 : FVec Ideal ⟨2, ![64, D]⟩ .f32) (v17 : FVec Ideal ⟨1, ![64]⟩ .f32)
    (h0 : (⟨2, ![4000, 1]⟩ : Shape).ShapeCasts ⟨2, ![4000, 1]⟩) (h4 : (⟨2, ![4000, D]⟩ : Shape).ShapeCasts ⟨2, ![4000, D]⟩)
    (hb : (⟨2, ![4000, 1]⟩ : Shape).Broadcasts ⟨2, ![4000, D]⟩)
    (ht : (⟨2, ![64, D]⟩ : Shape).Transposes [1, 0] ⟨2, ![D, 64]⟩)
    (h17 : (⟨1, ![64]⟩ : Shape).ShapeCasts ⟨2, ![1, 64]⟩) (hb17 : (⟨2, ![1, 64]⟩ : Shape).Broadcasts ⟨2, ![4000, 64]⟩)
    (hlt : FTy.bf16.bits < FTy.f32.bits) (p : Fin 4000) (q : Fin 64) :
    maximumf
        (addf
          (addf
            (matmul d none
              (truncf .bf16
                (divf (shapeCast ⟨2, ![4000, D]⟩ v4 h4)
                  (broadcastTo ⟨2, ![4000, D]⟩
                    (maximumf (shapeCast ⟨2, ![4000, 1]⟩ v0 h0)
                      (broadcast ⟨2, ![4000, 1]⟩ (Scalar.ofBits .f32 0x3F800000#32 : Ideal .f32))) hb)) hlt)
              (transpose ⟨2, ![D, 64]⟩ [1, 0] (truncf .bf16 v11 hlt) ht) (constant ⟨2, ![4000, 64]⟩ .f32 0x00000000#32))
            (broadcastTo ⟨2, ![4000, 64]⟩ (shapeCast ⟨2, ![1, 64]⟩ v17 h17) hb17))
          (matmul d none xb (transpose ⟨2, ![D, 64]⟩ [1, 0] (truncf .bf16 v13 hlt) ht)
            (constant ⟨2, ![4000, 64]⟩ .f32 0x00000000#32)))
        (broadcast ⟨2, ![4000, 64]⟩ (Scalar.ofBits .f32 0x00000000#32 : Ideal .f32)) (ix2 p q)
      = Cert.Sage.conv (N := 4000) (D := D) (H := 64) v4 (fun j => v0 (ix2 (j 0) (0 : Fin 1))) xb v11 v17 v13 p q := by
  unfold Cert.Sage.conv
  refine congrArg₂ max (congrArg₂ (· + ·) (congrArg₂ (· + ·) ?_ ?_) ?_) rfl
  · refine (Cert.LibDot.matmul_ix2 hd none _ _ p q).trans (Finset.sum_congr rfl fun k _ => congrArg₂ (· * ·) ?_ ?_)
    · exact mean_apply v0 v4 h0 h4 hb p k
    · exact transpose_ix2_apply _ ht k q
  · exact (broadcastTo_1b_ab_apply _ hb17 p q).trans (shapeCast_a_1a_apply v17 h17 (0 : Fin 1) q)
  · refine (Cert.LibDot.matmul_ix2 hd none _ _ p q).trans (Finset.sum_congr rfl fun k _ => congrArg₂ (· * ·) rfl ?_)
    exact transpose_ix2_apply _ ht k q

/-- The first body's stored block at (p, q): the first layer at row p of the block's inputs. -/
theorem pay0_apply (v0 : Vec Ideal S4000x1 .f32) (v4 v9 : Vec Ideal S4000x128 .f32) (v11 v13 : Vec Ideal S64x128 .f32)
    (v17 : Vec Ideal S64 .f32) (p : Fin 4000) (q : Fin 64) :
    k0_pay1 (F := Ideal) v0 v4 v9 v11 v13 v17 (ix2 p q)
      = Cert.Sage.conv (N := 4000) (D := 128) (H := 64) v4 (fun j => v0 (ix2 (j 0) (0 : Fin 1))) v9 v11 v17 v13 p q := by
  unfold k0_pay1
  exact conv_block _ plain128 v0 v4 _ v11 v13 v17 _ _ _ _ _ _ _ p q

/-- The second body's stored column at row p: the read-out of the second layer at row p of the block's inputs. -/
theorem pay1_apply (v0 : Vec Ideal S4000x1 .f32) (v4 v9 : Vec Ideal S4000x64 .f32) (v12 v14 : Vec Ideal S64x64 .f32)
    (v18 : Vec Ideal S64 .f32) (v27 : Vec Ideal S1x64 .f32) (v32 : Vec Ideal S1 .f32) (p : Fin 4000) :
    k1_pay1 (F := Ideal) v0 v4 v9 v12 v14 v18 v27 v32 (ix2 p (0 : Fin 1))
      = Cert.Sage.logit (N := 4000) (D := 64) (H := 64) v4 (fun j => v0 (ix2 (j 0) (0 : Fin 1))) v9 v12 v18 v14 v27 v32 p := by
  unfold k1_pay1 Cert.Sage.logit
  refine congrArg₂ (· + ·) ?_ ?_
  · refine (shapeCast_a_a1_apply _ _ p (0 : Fin 1)).trans ?_
    refine (multiReduction_add_rows_apply _ _ _ _ p).trans (Finset.sum_congr rfl fun k _ => congrArg₂ (· * ·) ?_ ?_)
    · rw [shapeCast_self v9]
      exact conv_block _ plain64 v0 v4 _ v12 v14 v18 _ _ _ _ _ _ _ p k
    · exact broadcastTo_1b_ab_apply v27 _ p k
  · exact (broadcastTo_1b_ab_apply _ _ p (0 : Fin 1)).trans (shapeCast_a_1a_apply v32 _ (0 : Fin 1) (0 : Fin 1))

end Cert.KernelIdeal.Body

end
-- ==== Proof.KArr0.lean ====
/-
  The first kernel's output array: the first layer of the arrays the kernel finds.

  The kernel runs over 25 points; point t works on rows 4000·t … 4000·t + 3999. Its three row-indexed inputs (the
  summed messages, the degree column and the node features) are each cut into the same 25 blocks of 4000 rows, the
  two weight matrices and the bias are taken whole at every point, and the point writes back block t of the
  output. Since an entry of the layer depends on its own row of the row-indexed inputs only, the block a point
  computes from its 4000 rows is the block of the layer of the WHOLE arrays at those rows. The 25 blocks cover
  every row (row r lies in block r / 4000), so the output array ends as that layer.
-/
import proofs.«153914_j43576738185797_1_alg».proof.Proof.Gen.KernelIdeal.Frame
import proofs.«153914_j43576738185797_1_alg».proof.Proof.KBody
import Idealize.ShloMosaic.Lib.Pipeline.Value

set_option maxRecDepth 16384

noncomputable section

namespace Cert.KernelIdeal.Arr0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point t: the row-indexed windows at block row t, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first layer of the arrays the kernel finds. -/
def H (c : Dev nD) : S100000x64.Idx → Elt Ideal .f32 :=
  Cert.Sage.layer (N := 100000) (D := 128) (H := 64)
    (V c main_v18 : S100000x128.Idx → Elt Ideal .f32)
    (fun j => (V c main_v8 : S100000x1.Idx → Elt Ideal .f32) (ix2 (j 0) (0 : Fin 1)))
    (V c main_arg0 : S100000x128.Idx → Elt Ideal .f32) (V c main_arg2 : S64x128.Idx → Elt Ideal .f32)
    (V c main_arg3 : S64.Idx → Elt Ideal .f32) (V c main_arg4 : S64x128.Idx → Elt Ideal .f32)

/-! ## Each input block as rows of its array -/

theorem blk0_apply (c : Dev nD) (t : Fin cfg0.N) (y : S4000x128.Idx) (k : S100000x128.Idx)
    (hk0 : (k 0).val = t.val * 4000 + (y 0).val) (hk1 : (k 1).val = (y 1).val) :
    (iblk0 V c 0 t : Vec Ideal S4000x128 .f32) y = (V c main_v18 : S100000x128.Idx → Elt Ideal .f32) k := by
  obtain ⟨e0, e1, -⟩ := idx_facts t
  unfold iblk0
  rw [View.read_apply]
  refine congrArg (V c main_v18 : S100000x128.Idx → Elt Ideal .f32) (funext fun a => Fin.ext ?_)
  match a with
  | ⟨0, _⟩ => show win0_0.index t (0 : Fin 2) * 4000 + 1 * (y 0).val = (k 0).val; rw [e0, hk0]; omega
  | ⟨1, _⟩ => show win0_0.index t (1 : Fin 2) * 128 + 1 * (y 1).val = (k 1).val; rw [e1, hk1]; omega

theorem blk1_apply (c : Dev nD) (t : Fin cfg0.N) (y : S4000x1.Idx) (k : S100000x1.Idx)
    (hk0 : (k 0).val = t.val * 4000 + (y 0).val) (hk1 : (k 1).val = (y 1).val) :
    (iblk0 V c 1 t : Vec Ideal S4000x1 .f32) y = (V c main_v8 : S100000x1.Idx → Elt Ideal .f32) k := by
  obtain ⟨-, -, e0, e1, -⟩ := idx_facts t
  unfold iblk0
  rw [View.read_apply]
  refine congrArg (V c main_v8 : S100000x1.Idx → Elt Ideal .f32) (funext fun a => Fin.ext ?_)
  match a with
  | ⟨0, _⟩ => show win0_1.index t (0 : Fin 2) * 4000 + 1 * (y 0).val = (k 0).val; rw [e0, hk0]; omega
  | ⟨1, _⟩ => show win0_1.index t (1 : Fin 2) * 1 + 1 * (y 1).val = (k 1).val; rw [e1, hk1]; omega

theorem blk2_apply (c : Dev nD) (t : Fin cfg0.N) (y : S4000x128.Idx) (k : S100000x128.Idx)
    (hk0 : (k 0).val = t.val * 4000 + (y 0).val) (hk1 : (k 1).val = (y 1).val) :
    (iblk0 V c 2 t : Vec Ideal S4000x128 .f32) y = (V c main_arg0 : S100000x128.Idx → Elt Ideal .f32) k := by
  obtain ⟨-, -, -, -, e0, e1, -⟩ := idx_facts t
  unfold iblk0
  rw [View.read_apply]
  refine congrArg (V c main_arg0 : S100000x128.Idx → Elt Ideal .f32) (funext fun a => Fin.ext ?_)
  match a with
  | ⟨0, _⟩ => show win0_2.index t (0 : Fin 2) * 4000 + 1 * (y 0).val = (k 0).val; rw [e0, hk0]; omega
  | ⟨1, _⟩ => show win0_2.index t (1 : Fin 2) * 128 + 1 * (y 1).val = (k 1).val; rw [e1, hk1]; omega

theorem blk3_eq (c : Dev nD) (t : Fin cfg0.N) :
    (iblk0 V c 3 t : Vec Ideal S64x128 .f32) = (V c main_arg2 : S64x128.Idx → Elt Ideal .f32) := by
  obtain ⟨-, -, -, -, -, -, e0, e1, -⟩ := idx_facts t
  funext y
  unfold iblk0
  rw [View.read_apply]
  refine congrArg (V c main_arg2 : S64x128.Idx → Elt Ideal .f32) (funext fun a => Fin.ext ?_)
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

theorem blk4_eq (c : Dev nD) (t : Fin cfg0.N) :
    (iblk0 V c 4 t : Vec Ideal S64 .f32) = (V c main_arg3 : S64.Idx → Elt Ideal .f32) := by
  obtain ⟨-, -, -, -, -, -, -, -, e0, -⟩ := idx_facts t
  funext y
  unfold iblk0
  rw [View.read_apply]
  refine congrArg (V c main_arg3 : S64.Idx → Elt Ideal .f32) (funext fun a => Fin.ext ?_)
  match a with
  | ⟨0, _⟩ => show win0_4.index t (0 : Fin 1) * 64 + 1 * (y 0).val = (y 0).val; rw [e0]; omega

theorem blk5_eq (c : Dev nD) (t : Fin cfg0.N) :
    (iblk0 V c 5 t : Vec Ideal S64x128 .f32) = (V c main_arg4 : S64x128.Idx → Elt Ideal .f32) := by
  obtain ⟨-, -, -, -, -, -, -, -, -, e0, e1, -⟩ := idx_facts t
  funext y
  unfold iblk0
  rw [View.read_apply]
  refine congrArg (V c main_arg4 : S64x128.Idx → Elt Ideal .f32) (funext fun a => Fin.ext ?_)
  match a with
  | ⟨0, _⟩ => show win0_5.index t (0 : Fin 2) * 64 + 1 * (y 0).val = (y 0).val; rw [e0]; omega
  | ⟨1, _⟩ => show win0_5.index t (1 : Fin 2) * 128 + 1 * (y 1).val = (y 1).val; rw [e1]; omega

/-! ## One point's block is the layer's block at its rows -/

/-- Over plain arrays: if three blocks are rows T·4000 … of three arrays, what the body computes from them at
    block entry j is the layer of the arrays at the array entry i that j sits at. -/
theorem point_entry (msg : S100000x128.Idx → EReal) (degc : S100000x1.Idx → EReal) (x : S100000x128.Idx → EReal)
    (Wl : S64x128.Idx → EReal) (bl : S64.Idx → EReal) (Wr : S64x128.Idx → EReal)
    (b0 : Vec Ideal S4000x128 .f32) (b1 : Vec Ideal S4000x1 .f32) (b2 : Vec Ideal S4000x128 .f32)
    (T : ℕ) (j : S4000x64.Idx) (i : S100000x64.Idx)
    (hi0 : (i 0).val = T * 4000 + (j 0).val) (hi1 : (i 1).val = (j 1).val)
    (h0 : ∀ (y : S4000x128.Idx) (k : S100000x128.Idx), (k 0).val = T * 4000 + (y 0).val → (k 1).val = (y 1).val → b0 y = msg k)
    (h1 : ∀ (y : S4000x1.Idx) (k : S100000x1.Idx), (k 0).val = T * 4000 + (y 0).val → (k 1).val = (y 1).val → b1 y = degc k)
    (h2 : ∀ (y : S4000x128.Idx) (k : S100000x128.Idx), (k 0).val = T * 4000 + (y 0).val → (k 1).val = (y 1).val → b2 y = x k) :
    k0_pay1 (F := Ideal) b1 b0 b2 Wl Wr bl j
      = Cert.Sage.layer (N := 100000) (D := 128) (H := 64) msg (fun j => degc (ix2 (j 0) (0 : Fin 1))) x Wl bl Wr i := by
  obtain ⟨p, q, rfl⟩ : ∃ (p : Fin 4000) (q : Fin 64), j = ix2 p q := ⟨j 0, j 1, eq_ix2 j⟩
  obtain ⟨r, s, rfl⟩ : ∃ (r : Fin 100000) (s : Fin 64), i = ix2 r s := ⟨i 0, i 1, eq_ix2 i⟩
  have hr : r.val = T * 4000 + p.val := hi0
  obtain rfl : s = q := Fin.ext hi1
  rw [Cert.KernelIdeal.Body.pay0_apply]
  show _ = Cert.Sage.conv msg (fun j => degc (ix2 (j 0) (0 : Fin 1))) x Wl bl Wr r s
  refine (Cert.Sage.conv_congr_row _ _ _ _ _ _ Wl bl Wr p r s (fun k => ?_) ?_ (fun k => ?_))
  · exact h0 (ix2 p k) (ix2 r k) hr rfl
  · exact h1 (ix2 p (0 : Fin 1)) (ix2 r (0 : Fin 1)) hr rfl
  · exact h2 (ix2 p k) (ix2 r k) hr rfl

/-- WHAT POINT t WRITES BACK is block t of the layer of the arrays the kernel finds. -/
theorem flushed_eq (c : Dev nD) (t : Fin cfg0.N) :
    (dat0 V c).flushed 6 t = ((cfg0.win 6).blk t).view.read (Elt Ideal) (H V c) := by
  show (cfg0.win 6).cut (grid0.coords t) ((dat0 V c).after 6 t) = _
  rw [after0_6]
  unfold out0_6
  rw [View.canon_unit_zero hz2]
  simp only [View.ld_unit_zero (S := S4000x1) hz2, View.ld_unit_zero (S := S4000x128) hz2,
    View.ld_unit_zero (S := S64x128) hz2, View.ld_unit_zero (S := S64) hz1]
  rw [blk3_eq V c t, blk4_eq V c t, blk5_eq V c t]
  obtain ⟨-, -, -, -, -, -, -, -, -, -, -, e0, e1⟩ := idx_facts t
  funext j
  rw [View.read_apply]
  unfold H
  refine point_entry _ _ _ _ _ _ _ _ _ t.val j _ ?_ ?_ (blk0_apply V c t) (blk1_apply V c t) (blk2_apply V c t)
  · show win0_6.index t (0 : Fin 2) * 4000 + 1 * (j 0).val = t.val * 4000 + (j 0).val; rw [e0]; omega
  · show win0_6.index t (1 : Fin 2) * 64 + 1 * (j 1).val = (j 1).val; rw [e1]; omega

/-- An index of the array is in point t's block iff each coordinate is in the block's range on its axis. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v19).slice (win0_6.rect t)).set ↔ _
  rw [View.set_slice_whole, Rect.mem_set_unit]
  exact Iff.rfl

/-- Every row lies in some point's block: row r in block r / 4000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  have ht : t.val = (i 0).val / 4000 := rfl
  obtain ⟨-, -, -, -, -, -, -, -, -, -, -, e0, e1⟩ := idx_facts t
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 64 ≤ (i 1).val ∧ (i 1).val < win0_6.index t (1 : Fin 2) * 64 + 64; rw [e1]; omega

/-- THE ARRAY after the kernel: the first layer of the arrays it found. -/
theorem final (c : Dev nD) : (dat0 V c).arrAt 6 cfg0.N = H V c :=
  (dat0 V c).arrAt_eq_of_cover 6 (H V c) (fun t _ => flushed_eq V c t) (cover)

end Cert.KernelIdeal.Arr0

end
-- ==== Proof.KArr1.lean ====
/-
  The second kernel's output array: the second layer and the read-out of the arrays the kernel finds.

  As for the first kernel, point t of 25 works on rows 4000·t … 4000·t + 3999 of its three row-indexed inputs (the
  summed messages of the first layer's output, the degree column, the first layer's output itself); the two weight
  matrices, the bias, the classifier row and the classifier bias are taken whole at every point. The point writes
  back block t of a column [100000, 1]: for each of its rows the read-out of the second layer at that row. Both the
  layer and the read-out are local to a row, so the block is the block of the read-out of the layer of the WHOLE
  arrays, and the 25 blocks cover the column.
-/
import proofs.«153914_j43576738185797_1_alg».proof.Proof.Gen.KernelIdeal.Frame
import proofs.«153914_j43576738185797_1_alg».proof.Proof.KBody
import Idealize.ShloMosaic.Lib.Pipeline.Value

set_option maxRecDepth 16384

noncomputable section

namespace Cert.KernelIdeal.Arr1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point t: the row-indexed windows at block row t, the others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- Row (i 0) of the second layer and read-out of the arrays the kernel finds, as a column. -/
def Out (c : Dev nD) : S100000x1.Idx → Elt Ideal .f32 := fun i =>
  Cert.Sage.logit (N := 100000) (D := 64) (H := 64)
    (V c main_v29 : S100000x64.Idx → Elt Ideal .f32)
    (fun j => (V c main_v8 : S100000x1.Idx → Elt Ideal .f32) (ix2 (j 0) (0 : Fin 1)))
    (V c main_v19 : S100000x64.Idx → Elt Ideal .f32) (V c main_arg5 : S64x64.Idx → Elt Ideal .f32)
    (V c main_arg6 : S64.Idx → Elt Ideal .f32) (V c main_arg7 : S64x64.Idx → Elt Ideal .f32)
    (V c main_arg8 : S1x64.Idx → Elt Ideal .f32) (V c main_arg9 : S1.Idx → Elt Ideal .f32) (i 0)

/-! ## Each input block as rows of its array -/

theorem blk0_apply (c : Dev nD) (t : Fin cfg1.N) (y : S4000x64.Idx) (k : S100000x64.Idx)
    (hk0 : (k 0).val = t.val * 4000 + (y 0).val) (hk1 : (k 1).val = (y 1).val) :
    (iblk1 V c 0 t : Vec Ideal S4000x64 .f32) y = (V c main_v29 : S100000x64.Idx → Elt Ideal .f32) k := by
  obtain ⟨e0, e1, -⟩ := idx_facts t
  unfold iblk1
  rw [View.read_apply]
  refine congrArg (V c main_v29 : S100000x64.Idx → Elt Ideal .f32) (funext fun a => Fin.ext ?_)
  match a with
  | ⟨0, _⟩ => show win1_0.index t (0 : Fin 2) * 4000 + 1 * (y 0).val = (k 0).val; rw [e0, hk0]; omega
  | ⟨1, _⟩ => show win1_0.index t (1 : Fin 2) * 64 + 1 * (y 1).val = (k 1).val; rw [e1, hk1]; omega

theorem blk1_apply (c : Dev nD) (t : Fin cfg1.N) (y : S4000x1.Idx) (k : S100000x1.Idx)
    (hk0 : (k 0).val = t.val * 4000 + (y 0).val) (hk1 : (k 1).val = (y 1).val) :
    (iblk1 V c 1 t : Vec Ideal S4000x1 .f32) y = (V c main_v8 : S100000x1.Idx → Elt Ideal .f32) k := by
  obtain ⟨-, -, e0, e1, -⟩ := idx_facts t
  unfold iblk1
  rw [View.read_apply]
  refine congrArg (V c main_v8 : S100000x1.Idx → Elt Ideal .f32) (funext fun a => Fin.ext ?_)
  match a with
  | ⟨0, _⟩ => show win1_1.index t (0 : Fin 2) * 4000 + 1 * (y 0).val = (k 0).val; rw [e0, hk0]; omega
  | ⟨1, _⟩ => show win1_1.index t (1 : Fin 2) * 1 + 1 * (y 1).val = (k 1).val; rw [e1, hk1]; omega

theorem blk2_apply (c : Dev nD) (t : Fin cfg1.N) (y : S4000x64.Idx) (k : S100000x64.Idx)
    (hk0 : (k 0).val = t.val * 4000 + (y 0).val) (hk1 : (k 1).val = (y 1).val) :
    (iblk1 V c 2 t : Vec Ideal S4000x64 .f32) y = (V c main_v19 : S100000x64.Idx → Elt Ideal .f32) k := by
  obtain ⟨-, -, -, -, e0, e1, -⟩ := idx_facts t
  unfold iblk1
  rw [View.read_apply]
  refine congrArg (V c main_v19 : S100000x64.Idx → Elt Ideal .f32) (funext fun a => Fin.ext ?_)
  match a with
  | ⟨0, _⟩ => show win1_2.index t (0 : Fin 2) * 4000 + 1 * (y 0).val = (k 0).val; rw [e0, hk0]; omega
  | ⟨1, _⟩ => show win1_2.index t (1 : Fin 2) * 64 + 1 * (y 1).val = (k 1).val; rw [e1, hk1]; omega

theorem blk3_eq (c : Dev nD) (t : Fin cfg1.N) :
    (iblk1 V c 3 t : Vec Ideal S64x64 .f32) = (V c main_arg5 : S64x64.Idx → Elt Ideal .f32) := by
  obtain ⟨-, -, -, -, -, -, e0, e1, -⟩ := idx_facts t
  funext y
  unfold iblk1
  rw [View.read_apply]
  refine congrArg (V c main_arg5 : S64x64.Idx → Elt Ideal .f32) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem blk4_eq (c : Dev nD) (t : Fin cfg1.N) :
    (iblk1 V c 4 t : Vec Ideal S64 .f32) = (V c main_arg6 : S64.Idx → Elt Ideal .f32) := by
  obtain ⟨-, -, -, -, -, -, -, -, e0, -⟩ := idx_facts t
  funext y
  unfold iblk1
  rw [View.read_apply]
  refine congrArg (V c main_arg6 : S64.Idx → Elt Ideal .f32) (funext fun a => Fin.ext ?_)
  match a with
  | ⟨0, _⟩ => show win1_4.index t (0 : Fin 1) * 64 + 1 * (y 0).val = (y 0).val; rw [e0]; omega

theorem blk5_eq (c : Dev nD) (t : Fin cfg1.N) :
    (iblk1 V c 5 t : Vec Ideal S64x64 .f32) = (V c main_arg7 : S64x64.Idx → Elt Ideal .f32) := by
  obtain ⟨-, -, -, -, -, -, -, -, -, e0, e1, -⟩ := idx_facts t
  funext y
  unfold iblk1
  rw [View.read_apply]
  refine congrArg (V c main_arg7 : S64x64.Idx → Elt Ideal .f32) (funext fun a => Fin.ext ?_)
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

theorem blk6_eq (c : Dev nD) (t : Fin cfg1.N) :
    (iblk1 V c 6 t : Vec Ideal S1x64 .f32) = (V c main_arg8 : S1x64.Idx → Elt Ideal .f32) := by
  obtain ⟨-, -, -, -, -, -, -, -, -, -, -, e0, e1, -⟩ := idx_facts t
  funext y
  unfold iblk1
  rw [View.read_apply]
  refine congrArg (V c main_arg8 : S1x64.Idx → Elt Ideal .f32) (funext fun a => Fin.ext ?_)
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

theorem blk7_eq (c : Dev nD) (t : Fin cfg1.N) :
    (iblk1 V c 7 t : Vec Ideal S1 .f32) = (V c main_arg9 : S1.Idx → Elt Ideal .f32) := by
  obtain ⟨-, -, -, -, -, -, -, -, -, -, -, -, -, e0, -⟩ := idx_facts t
  funext y
  unfold iblk1
  rw [View.read_apply]
  refine congrArg (V c main_arg9 : S1.Idx → Elt Ideal .f32) (funext fun a => Fin.ext ?_)
  match a with
  | ⟨0, _⟩ => show win1_7.index t (0 : Fin 1) * 1 + 1 * (y 0).val = (y 0).val; rw [e0]; omega

/-! ## One point's block is the read-out's block at its rows -/

/-- The layer and read-out of row r read row r of the row-indexed inputs only. -/
theorem logit_congr_row {N N' D H : ℕ}
    (msg : (⟨2, ![N, D]⟩ : Shape).Idx → EReal) (deg : (⟨1, ![N]⟩ : Shape).Idx → EReal) (x : (⟨2, ![N, D]⟩ : Shape).Idx → EReal)
    (msg' : (⟨2, ![N', D]⟩ : Shape).Idx → EReal) (deg' : (⟨1, ![N']⟩ : Shape).Idx → EReal) (x' : (⟨2, ![N', D]⟩ : Shape).Idx → EReal)
    (Wl : (⟨2, ![H, D]⟩ : Shape).Idx → EReal) (bl : (⟨1, ![H]⟩ : Shape).Idx → EReal) (Wr : (⟨2, ![H, D]⟩ : Shape).Idx → EReal)
    (Wc : (⟨2, ![1, H]⟩ : Shape).Idx → EReal) (bc : (⟨1, ![1]⟩ : Shape).Idx → EReal)
    (r : Fin N) (r' : Fin N')
    (hm : ∀ k, msg (ix2 r k) = msg' (ix2 r' k)) (hd : deg (ix1 r) = deg' (ix1 r')) (hx : ∀ k, x (ix2 r k) = x' (ix2 r' k)) :
    Cert.Sage.logit msg deg x Wl bl Wr Wc bc r = Cert.Sage.logit msg' deg' x' Wl bl Wr Wc bc r' := by
  unfold Cert.Sage.logit
  refine congrArg₂ (· + ·) (Finset.sum_congr rfl fun k _ => congrArg₂ (· * ·) ?_ rfl) rfl
  exact Cert.Sage.conv_congr_row msg deg x msg' deg' x' Wl bl Wr r r' k hm hd hx

/-- Over plain arrays: if three blocks are rows T·4000 … of three arrays, what the body computes from them at
    block row j is the layer and read-out of the arrays at the array row i that j sits at. -/
theorem point_entry (msg : S100000x64.Idx → EReal) (degc : S100000x1.Idx → EReal) (x : S100000x64.Idx → EReal)
    (Wl : S64x64.Idx → EReal) (bl : S64.Idx → EReal) (Wr : S64x64.Idx → EReal) (Wc : S1x64.Idx → EReal) (bc : S1.Idx → EReal)
    (b0 : Vec Ideal S4000x64 .f32) (b1 : Vec Ideal S4000x1 .f32) (b2 : Vec Ideal S4000x64 .f32)
    (T : ℕ) (j : S4000x1.Idx) (i : S100000x1.Idx)
    (hi0 : (i 0).val = T * 4000 + (j 0).val)
    (h0 : ∀ (y : S4000x64.Idx) (k : S100000x64.Idx), (k 0).val = T * 4000 + (y 0).val → (k 1).val = (y 1).val → b0 y = msg k)
    (h1 : ∀ (y : S4000x1.Idx) (k : S100000x1.Idx), (k 0).val = T * 4000 + (y 0).val → (k 1).val = (y 1).val → b1 y = degc k)
    (h2 : ∀ (y : S4000x64.Idx) (k : S100000x64.Idx), (k 0).val = T * 4000 + (y 0).val → (k 1).val = (y 1).val → b2 y = x k) :
    k1_pay1 (F := Ideal) b1 b0 b2 Wl Wr bl Wc bc j
      = Cert.Sage.logit (N := 100000) (D := 64) (H := 64) msg (fun j => degc (ix2 (j 0) (0 : Fin 1))) x Wl bl Wr Wc bc (i 0) := by
  obtain ⟨p, u, rfl⟩ : ∃ (p : Fin 4000) (u : Fin 1), j = ix2 p u := ⟨j 0, j 1, eq_ix2 j⟩
  obtain rfl : u = 0 := Subsingleton.elim _ _
  obtain ⟨r, hr⟩ : ∃ r : Fin 100000, r = i 0 := ⟨i 0, rfl⟩
  have hrv : r.val = T * 4000 + p.val := by rw [hr]; exact hi0
  rw [Cert.KernelIdeal.Body.pay1_apply, ← hr]
  refine logit_congr_row _ _ _ _ _ _ Wl bl Wr Wc bc p r (fun k => ?_) ?_ (fun k => ?_)
  · exact h0 (ix2 p k) (ix2 r k) hrv rfl
  · exact h1 (ix2 p (0 : Fin 1)) (ix2 r (0 : Fin 1)) hrv rfl
  · exact h2 (ix2 p k) (ix2 r k) hrv rfl

/-- WHAT POINT t WRITES BACK is block t of the read-out column of the arrays the kernel finds. -/
theorem flushed_eq (c : Dev nD) (t : Fin cfg1.N) :
    (dat1 V c).flushed 8 t = ((cfg1.win 8).blk t).view.read (Elt Ideal) (Out V c) := by
  show (cfg1.win 8).cut (grid1.coords t) ((dat1 V c).after 8 t) = _
  rw [after1_8]
  unfold out1_8
  rw [View.canon_unit_zero hz2]
  simp only [View.ld_unit_zero (S := S4000x1) hz2, View.ld_unit_zero (S := S4000x64) hz2,
    View.ld_unit_zero (S := S64x64) hz2, View.ld_unit_zero (S := S64) hz1, View.ld_unit_zero (S := S1x64) hz2,
    View.ld_unit_zero (S := S1) hz1]
  rw [blk3_eq V c t, blk4_eq V c t, blk5_eq V c t, blk6_eq V c t, blk7_eq V c t]
  obtain ⟨-, -, -, -, -, -, -, -, -, -, -, -, -, -, e0, e1⟩ := idx_facts t
  funext j
  rw [View.read_apply]
  unfold Out
  refine point_entry _ _ _ _ _ _ _ _ _ _ _ t.val j _ ?_ (blk0_apply V c t) (blk1_apply V c t) (blk2_apply V c t)
  show win1_8.index t (0 : Fin 2) * 4000 + 1 * (j 0).val = t.val * 4000 + (j 0).val; rw [e0]; omega

/-- An index of the column is in point t's block iff each coordinate is in the block's range on its axis. -/
theorem mem_blk (t : Fin cfg1.N) (i : S100000x1.Idx) :
    i ∈ ((cfg1.win 8).blk t).view.set ↔ ∀ a : Fin 2, win1_8.index t a * S4000x1.size a ≤ (i a).val ∧ (i a).val < win1_8.index t a * S4000x1.size a + S4000x1.size a := by
  show i ∈ ((View.whole main_v30).slice (win1_8.rect t)).set ↔ _
  rw [View.set_slice_whole, Rect.mem_set_unit]
  exact Iff.rfl

/-- Every row lies in some point's block: row r in block r / 4000. -/
theorem cover (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  have hN : cfg1.N = 25 := N_1
  let t : Fin cfg1.N := ⟨(i 0).val / 4000, by rw [hN]; omega⟩
  have ht : t.val = (i 0).val / 4000 := rfl
  obtain ⟨-, -, -, -, -, -, -, -, -, -, -, -, -, -, e0, e1⟩ := idx_facts t
  refine ⟨t, flush1_8 t, ?_⟩
  rw [mem_blk]
  intro a
  match a with
  | ⟨0, _⟩ => show win1_8.index t (0 : Fin 2) * 4000 ≤ (i 0).val ∧ (i 0).val < win1_8.index t (0 : Fin 2) * 4000 + 4000; rw [e0, ht]; omega
  | ⟨1, _⟩ => show win1_8.index t (1 : Fin 2) * 1 ≤ (i 1).val ∧ (i 1).val < win1_8.index t (1 : Fin 2) * 1 + 1; rw [e1]; omega

/-- THE COLUMN after the kernel: the second layer and read-out of the arrays it found. -/
theorem final (c : Dev nD) : (dat1 V c).arrAt 8 cfg1.N = Out V c :=
  (dat1 V c).arrAt_eq_of_cover 8 (Out V c) (fun t _ => flushed_eq V c t) (cover)

end Cert.KernelIdeal.Arr1

end
-- ==== Proof.KGlue.lean ====
/-
  The host computations along the edges, named once.

  Both programs read the edge list's two rows as vectors of 1.6 million node numbers, sources and targets; count,
  for every node, the edges that end at it (a sum of ones scattered to the targets); and, for a table of node rows,
  add up for every node the rows of the sources of the edges that end at it (rows gathered at the sources, a
  negative source number first moved up by the number of nodes, then scattered with addition to the targets). These
  are the same operations with the same dimension numbers in both programs. They are named here and never opened:
  all that is ever used of them is that equal inputs give equal outputs.
-/
import proofs.«153914_j43576738185797_1_alg».proof.Proof.Gen.KernelIdeal
import Idealize.ShloMosaic.PureOps.Ideal

noncomputable section

namespace Cert.KernelIdeal.Glue

open Idealize.ShloMosaic Cert.KernelIdeal Cert.KernelIdeal.Facts₀

/-- The sources: row 0 of the edge list. -/
def srcV (ei : IVec S2x1600000 32) : IVec S1600000 32 :=
  shapeCast S1600000 (extractStridedSlice S1x1600000 ![0, 0] ei slices_S2x1600000_S1x1600000_0_0) shapeCasts_S1x1600000_S1600000

/-- The targets: row 1 of the edge list. -/
def dstV (ei : IVec S2x1600000 32) : IVec S1600000 32 :=
  shapeCast S1600000 (extractStridedSlice S1x1600000 ![1, 0] ei slices_S2x1600000_S1x1600000_1_0) shapeCasts_S1x1600000_S1600000

/-- The in-degree of every node: ones added up at the targets. -/
def deg (dst : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The source numbers as gather indices: a negative number moved up by the number of nodes. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Rows of width 128 added up along the edges: for every node the sum of its in-neighbours' rows. -/
def agg128 (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x (srcIdx src))

/-- Rows of width 64 added up along the edges. -/
def agg64 (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h (srcIdx src))

end Cert.KernelIdeal.Glue

end
-- ==== Proof.KFold.lean ====
/-
  The kernel program's result, traced back to its arguments.

  Going backwards from the result: it is the last host operation's reshaping of the column the second kernel leaves;
  that column is the second layer and read-out of the arrays the second kernel finds; of those, the summed messages
  are the host's sums along the edges of the first kernel's output, the degree column and the first kernel's output
  are as the first kernel left them, and the weights are the arguments, which nothing writes. The first kernel's
  output is the first layer of the arrays IT finds: the host's sums along the edges of the node features, the
  degree column, and arguments again. Put together, the result is a fixed expression in the arguments: the first
  layer `H1`, the sums of its rows along the edges, the second layer and the read-out.
-/
import proofs.«153914_j43576738185797_1_alg».proof.Proof.Gen.KernelIdeal.Frame
import proofs.«153914_j43576738185797_1_alg».proof.Proof.KArr0
import proofs.«153914_j43576738185797_1_alg».proof.Proof.KArr1
import proofs.«153914_j43576738185797_1_alg».proof.Proof.KGlue
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Glue

variable (m : (ℓ : Loc nD τ sig) → Buf (Elt Ideal) ℓ) (ρ : Dev nD → PrngReg)

/-! ## The arguments as launched -/

abbrev a0 (c : Dev nD) : FVec Ideal S100000x128 .f32 := m ((c.tc : Thread nD τ).loc main_arg0)
abbrev a2 (c : Dev nD) : FVec Ideal S64x128 .f32 := m ((c.tc : Thread nD τ).loc main_arg2)
abbrev a3 (c : Dev nD) : FVec Ideal S64 .f32 := m ((c.tc : Thread nD τ).loc main_arg3)
abbrev a4 (c : Dev nD) : FVec Ideal S64x128 .f32 := m ((c.tc : Thread nD τ).loc main_arg4)
abbrev a5 (c : Dev nD) : FVec Ideal S64x64 .f32 := m ((c.tc : Thread nD τ).loc main_arg5)
abbrev a6 (c : Dev nD) : FVec Ideal S64 .f32 := m ((c.tc : Thread nD τ).loc main_arg6)
abbrev a7 (c : Dev nD) : FVec Ideal S64x64 .f32 := m ((c.tc : Thread nD τ).loc main_arg7)
abbrev a8 (c : Dev nD) : FVec Ideal S1x64 .f32 := m ((c.tc : Thread nD τ).loc main_arg8)
abbrev a9 (c : Dev nD) : FVec Ideal S1 .f32 := m ((c.tc : Thread nD τ).loc main_arg9)
abbrev a1 (c : Dev nD) : IVec S2x1600000 32 := m ((c.tc : Thread nD τ).loc main_arg1)

/-- The first layer of the arguments: its summed messages and degrees the host's sums along the edges. -/
def H1 (c : Dev nD) : FVec Ideal S100000x64 .f32 :=
  Cert.Sage.layer (N := 100000) (D := 128) (H := 64) (agg128 (a0 m c) (srcV (a1 m c)) (dstV (a1 m c))) (deg (dstV (a1 m c)))
    (a0 m c) (a2 m c) (a3 m c) (a4 m c)

/-- The second layer and read-out over the first layer, as a column. -/
def OutCol (c : Dev nD) : S100000x1.Idx → EReal := fun i =>
  Cert.Sage.logit (N := 100000) (D := 64) (H := 64) (agg64 (H1 m c) (srcV (a1 m c)) (dstV (a1 m c))) (deg (dstV (a1 m c)))
    (H1 m c) (a5 m c) (a6 m c) (a7 m c) (a8 m c) (a9 m c) (i 0)

/-- A vector viewed as a column and read back down the column is the vector. -/
theorem degcol_eq (d : FVec Ideal S100000 .f32) :
    (fun j : S100000.Idx => shapeCast S100000x1 d shapeCasts_S100000_S100000x1 (ix2 (j 0) (0 : Fin 1))) = d := by
  funext j
  obtain ⟨r, rfl⟩ : ∃ r : Fin 100000, j = ix1 r := ⟨j 0, eq_ix1 j⟩
  exact shapeCast_a_a1_apply d shapeCasts_S100000_S100000x1 r (0 : Fin 1)

/-! ## Before the first kernel: the host's first stretch from the launch memory -/

theorem w1_src (c : Dev nD) : (V1 m ρ c main_v1 : IVec S1600000 32) = srcV (a1 m c) := by
  dsimp only [V1, W1, hostOps0]; after_results_simp <;> rfl
theorem w1_dst (c : Dev nD) : (V1 m ρ c main_v3 : IVec S1600000 32) = dstV (a1 m c) := by
  dsimp only [V1, W1, hostOps0]; after_results_simp <;> rfl
theorem w1_degcol (c : Dev nD) :
    (V1 m ρ c main_v8 : S100000x1.Idx → EReal) = shapeCast S100000x1 (deg (dstV (a1 m c))) shapeCasts_S100000_S100000x1 := by
  dsimp only [V1, W1, hostOps0]; after_results_simp <;> rfl
theorem w1_msg (c : Dev nD) :
    (V1 m ρ c main_v18 : S100000x128.Idx → EReal) = agg128 (a0 m c) (srcV (a1 m c)) (dstV (a1 m c)) := by
  dsimp only [V1, W1, hostOps0]; after_results_simp <;> rfl
theorem w1_arg0 (c : Dev nD) : (V1 m ρ c main_arg0 : S100000x128.Idx → EReal) = a0 m c := by
  dsimp only [V1, W1, hostOps0]; after_results_simp <;> rfl
theorem w1_arg2 (c : Dev nD) : (V1 m ρ c main_arg2 : S64x128.Idx → EReal) = a2 m c := by
  dsimp only [V1, W1, hostOps0]; after_results_simp <;> rfl
theorem w1_arg3 (c : Dev nD) : (V1 m ρ c main_arg3 : S64.Idx → EReal) = a3 m c := by
  dsimp only [V1, W1, hostOps0]; after_results_simp <;> rfl
theorem w1_arg4 (c : Dev nD) : (V1 m ρ c main_arg4 : S64x128.Idx → EReal) = a4 m c := by
  dsimp only [V1, W1, hostOps0]; after_results_simp <;> rfl
theorem w1_arg5 (c : Dev nD) : (V1 m ρ c main_arg5 : S64x64.Idx → EReal) = a5 m c := by
  dsimp only [V1, W1, hostOps0]; after_results_simp <;> rfl
theorem w1_arg6 (c : Dev nD) : (V1 m ρ c main_arg6 : S64.Idx → EReal) = a6 m c := by
  dsimp only [V1, W1, hostOps0]; after_results_simp <;> rfl
theorem w1_arg7 (c : Dev nD) : (V1 m ρ c main_arg7 : S64x64.Idx → EReal) = a7 m c := by
  dsimp only [V1, W1, hostOps0]; after_results_simp <;> rfl
theorem w1_arg8 (c : Dev nD) : (V1 m ρ c main_arg8 : S1x64.Idx → EReal) = a8 m c := by
  dsimp only [V1, W1, hostOps0]; after_results_simp <;> rfl
theorem w1_arg9 (c : Dev nD) : (V1 m ρ c main_arg9 : S1.Idx → EReal) = a9 m c := by
  dsimp only [V1, W1, hostOps0]; after_results_simp <;> rfl

/-! ## After the first kernel -/

theorem w2_src (c : Dev nD) : (W2 m ρ c (Proc.devRef .tc main_v1) : IVec S1600000 32) = srcV (a1 m c) :=
  (W2_of_ne m ρ c main_v1 (by decide)).trans (w1_src m ρ c)
theorem w2_dst (c : Dev nD) : (W2 m ρ c (Proc.devRef .tc main_v3) : IVec S1600000 32) = dstV (a1 m c) :=
  (W2_of_ne m ρ c main_v3 (by decide)).trans (w1_dst m ρ c)
/-- The degree column is one of the first kernel's inputs: it leaves it as it found it. -/
theorem w2_degcol (c : Dev nD) :
    (W2 m ρ c (Proc.devRef .tc main_v8) : S100000x1.Idx → EReal) = shapeCast S100000x1 (deg (dstV (a1 m c))) shapeCasts_S100000_S100000x1 :=
  ((W2_arr m ρ c 1).trans (((dat0 (V1 m ρ) c).arrAt_in 1 rfl _).trans (A_eq0 (V1 m ρ) c 1))).trans (w1_degcol m ρ c)
theorem w2_arg5 (c : Dev nD) : (W2 m ρ c (Proc.devRef .tc main_arg5) : S64x64.Idx → EReal) = a5 m c :=
  (W2_of_ne m ρ c main_arg5 (by decide)).trans (w1_arg5 m ρ c)
theorem w2_arg6 (c : Dev nD) : (W2 m ρ c (Proc.devRef .tc main_arg6) : S64.Idx → EReal) = a6 m c :=
  (W2_of_ne m ρ c main_arg6 (by decide)).trans (w1_arg6 m ρ c)
theorem w2_arg7 (c : Dev nD) : (W2 m ρ c (Proc.devRef .tc main_arg7) : S64x64.Idx → EReal) = a7 m c :=
  (W2_of_ne m ρ c main_arg7 (by decide)).trans (w1_arg7 m ρ c)
theorem w2_arg8 (c : Dev nD) : (W2 m ρ c (Proc.devRef .tc main_arg8) : S1x64.Idx → EReal) = a8 m c :=
  (W2_of_ne m ρ c main_arg8 (by decide)).trans (w1_arg8 m ρ c)
theorem w2_arg9 (c : Dev nD) : (W2 m ρ c (Proc.devRef .tc main_arg9) : S1.Idx → EReal) = a9 m c :=
  (W2_of_ne m ρ c main_arg9 (by decide)).trans (w1_arg9 m ρ c)

/-- The first kernel's output is the first layer of the arguments. -/
theorem w2_h1 (c : Dev nD) : (W2 m ρ c (Proc.devRef .tc main_v19) : S100000x64.Idx → EReal) = H1 m c := by
  refine (W2_arr m ρ c 6).trans ((Cert.KernelIdeal.Arr0.final (V1 m ρ) c).trans ?_)
  unfold Cert.KernelIdeal.Arr0.H H1
  rw [w1_msg m ρ c, w1_degcol m ρ c, w1_arg0 m ρ c, w1_arg2 m ρ c, w1_arg3 m ρ c, w1_arg4 m ρ c, degcol_eq]

/-! ## Before the second kernel: the host's second stretch -/

theorem w3_msg (c : Dev nD) :
    (V3 m ρ c main_v29 : S100000x64.Idx → EReal) = agg64 (H1 m c) (srcV (a1 m c)) (dstV (a1 m c)) := by
  have e : (V3 m ρ c main_v29 : S100000x64.Idx → EReal)
      = agg64 (W2 m ρ c (Proc.devRef .tc main_v19)) (W2 m ρ c (Proc.devRef .tc main_v1)) (W2 m ρ c (Proc.devRef .tc main_v3)) := by
    dsimp only [V3, W3, hostOps1]; after_results_simp <;> rfl
  rw [e, w2_h1 m ρ c, w2_src m ρ c, w2_dst m ρ c]
theorem w3_degcol (c : Dev nD) :
    (V3 m ρ c main_v8 : S100000x1.Idx → EReal) = shapeCast S100000x1 (deg (dstV (a1 m c))) shapeCasts_S100000_S100000x1 := by
  have e : (V3 m ρ c main_v8 : S100000x1.Idx → EReal) = W2 m ρ c (Proc.devRef .tc main_v8) := by
    dsimp only [V3, W3, hostOps1]; after_results_simp <;> rfl
  rw [e, w2_degcol m ρ c]
theorem w3_h1 (c : Dev nD) : (V3 m ρ c main_v19 : S100000x64.Idx → EReal) = H1 m c := by
  have e : (V3 m ρ c main_v19 : S100000x64.Idx → EReal) = W2 m ρ c (Proc.devRef .tc main_v19) := by
    dsimp only [V3, W3, hostOps1]; after_results_simp <;> rfl
  rw [e, w2_h1 m ρ c]
theorem w3_arg5 (c : Dev nD) : (V3 m ρ c main_arg5 : S64x64.Idx → EReal) = a5 m c := by
  have e : (V3 m ρ c main_arg5 : S64x64.Idx → EReal) = W2 m ρ c (Proc.devRef .tc main_arg5) := by
    dsimp only [V3, W3, hostOps1]; after_results_simp <;> rfl
  rw [e, w2_arg5 m ρ c]
theorem w3_arg6 (c : Dev nD) : (V3 m ρ c main_arg6 : S64.Idx → EReal) = a6 m c := by
  have e : (V3 m ρ c main_arg6 : S64.Idx → EReal) = W2 m ρ c (Proc.devRef .tc main_arg6) := by
    dsimp only [V3, W3, hostOps1]; after_results_simp <;> rfl
  rw [e, w2_arg6 m ρ c]
theorem w3_arg7 (c : Dev nD) : (V3 m ρ c main_arg7 : S64x64.Idx → EReal) = a7 m c := by
  have e : (V3 m ρ c main_arg7 : S64x64.Idx → EReal) = W2 m ρ c (Proc.devRef .tc main_arg7) := by
    dsimp only [V3, W3, hostOps1]; after_results_simp <;> rfl
  rw [e, w2_arg7 m ρ c]
theorem w3_arg8 (c : Dev nD) : (V3 m ρ c main_arg8 : S1x64.Idx → EReal) = a8 m c := by
  have e : (V3 m ρ c main_arg8 : S1x64.Idx → EReal) = W2 m ρ c (Proc.devRef .tc main_arg8) := by
    dsimp only [V3, W3, hostOps1]; after_results_simp <;> rfl
  rw [e, w2_arg8 m ρ c]
theorem w3_arg9 (c : Dev nD) : (V3 m ρ c main_arg9 : S1.Idx → EReal) = a9 m c := by
  have e : (V3 m ρ c main_arg9 : S1.Idx → EReal) = W2 m ρ c (Proc.devRef .tc main_arg9) := by
    dsimp only [V3, W3, hostOps1]; after_results_simp <;> rfl
  rw [e, w2_arg9 m ρ c]

/-! ## After the second kernel, and the result -/

/-- The second kernel's output column is the second layer and read-out over the first layer. -/
theorem w4_out (c : Dev nD) : (W4 m ρ c (Proc.devRef .tc main_v30) : S100000x1.Idx → EReal) = OutCol m c := by
  refine (W4_arr m ρ c 8).trans ((Cert.KernelIdeal.Arr1.final (V3 m ρ) c).trans ?_)
  unfold Cert.KernelIdeal.Arr1.Out OutCol
  rw [w3_msg m ρ c, w3_degcol m ρ c, w3_h1 m ρ c, w3_arg5 m ρ c, w3_arg6 m ρ c, w3_arg7 m ρ c, w3_arg8 m ρ c, w3_arg9 m ρ c, degcol_eq]

/-- THE RESULT of the kernel program: that column viewed as a vector. -/
theorem out_eq (c : Dev nD) :
    (W5 m ρ c (Proc.devRef .tc main_v31) : S100000.Idx → EReal) = shapeCast S100000 (OutCol m c) shapeCasts_S100000x1_S100000 := by
  have e : (W5 m ρ c (Proc.devRef .tc main_v31) : S100000.Idx → EReal)
      = shapeCast S100000 (W4 m ρ c (Proc.devRef .tc main_v30) : S100000x1.Idx → EReal) shapeCasts_S100000x1_S100000 := by
    dsimp only [W5, hostOps2]; after_results_simp <;> rfl
  rw [e, w4_out m ρ c]

end Cert.KernelIdeal.Fold

end
-- ==== Proof.RefValue.lean ====
/-
  The reference program's two layers and its read-out, read at an entry.

  Each layer of the reference divides the aggregated neighbour rows by the larger of the row's degree and one,
  multiplies the quotient into the transposed neighbour weights, adds the bias row, adds the node's own row through
  the transposed root weights, and cuts the result off below at zero.  Read at entry (r, c), every stage depends on
  row r of its row-indexed operands and on row c of the weights only: the divisor is a column copied along the
  row, the bias a row copied along the column, and a transposed weight matrix read at (k, c) is the matrix read at
  (c, k).  Composing the stages' readings therefore gives exactly the entry `conv … r c` of the specification,
  with the aggregated sums and the degrees left as the arrays they are.  The read-out multiplies row r of the
  second layer into the one transposed classifier row and adds the one bias entry.

  The words of one and of zero are carried as words; they are the same words on both sides.
-/
import proofs.«153914_j43576738185797_1_alg».proof.Proof.Gen.ReferenceIdeal.Read
import proofs.«153914_j43576738185797_1_alg».proof.Proof.Spec
import proofs.«153914_j43576738185797_1_alg».proof.Proof.LibRowSum

noncomputable section

namespace Cert.ReferenceIdeal.RefValue

open Idealize.ShloMosaic Idealize.ShloMosaic.ValueIdx Cert.ReferenceIdeal Cert.ReferenceIdeal.Read

section Stages

variable (x0 : (⟨S100000x128, .f32⟩ : BufTy).Contents (Elt Ideal)) (x1 : (⟨S2x1600000, .i32⟩ : BufTy).Contents (Elt Ideal))
  (x2 : (⟨S64x128, .f32⟩ : BufTy).Contents (Elt Ideal)) (x3 : (⟨S64, .f32⟩ : BufTy).Contents (Elt Ideal)) (x4 : (⟨S64x128, .f32⟩ : BufTy).Contents (Elt Ideal))
  (x5 : (⟨S64x64, .f32⟩ : BufTy).Contents (Elt Ideal)) (x6 : (⟨S64, .f32⟩ : BufTy).Contents (Elt Ideal)) (x7 : (⟨S64x64, .f32⟩ : BufTy).Contents (Elt Ideal))
  (x8 : (⟨S1x64, .f32⟩ : BufTy).Contents (Elt Ideal)) (x9 : (⟨S1, .f32⟩ : BufTy).Contents (Elt Ideal))

/-! ## The first layer -/

/-- The first layer's divisor at (r, k) is the larger of row r's degree and one: a column copied along the row. -/
theorem den1_at (r : Fin 100000) (k : Fin 128) :
    val_main_v21 (F := Ideal) x1 (ix2 r k) = max (val_main_v17 (F := Ideal) x1 (ix1 r)) Cert.Sage.one := by
  have e : idx_main_v20 (idx_main_v21 (ix2 r k)) = ix1 r := idx1_ext _ r rfl
  rw [val_main_v21_apply, val_main_v20_apply, e, val_main_v19_apply, val_main_v18_apply, val_main_cst_3_apply]
  rfl

/-- The mean of the neighbours' rows at (r, k): the aggregated sum over the divisor. -/
theorem mean1_at (r : Fin 100000) (k : Fin 128) :
    val_main_v22 (F := Ideal) x0 x1 (ix2 r k)
      = Ideal.div (val_main_v13 (F := Ideal) x0 x1 (ix2 r k)) (max (val_main_v17 (F := Ideal) x1 (ix1 r)) Cert.Sage.one) := by
  rw [val_main_v22_apply, den1_at]
  rfl

/-- The neighbour half at (r, c): row r of the mean against row c of the neighbour weights. -/
theorem nbr1_at (r : Fin 100000) (c : Fin 64) :
    val_main_v24 (F := Ideal) x0 x1 x2 (ix2 r c)
      = ∑ k : Fin 128, Ideal.div (val_main_v13 (F := Ideal) x0 x1 (ix2 r k)) (max (val_main_v17 (F := Ideal) x1 (ix1 r)) Cert.Sage.one)
          * x2 (ix2 c k) := by
  rw [val_main_v24_apply]
  refine Finset.sum_congr rfl fun k _ => ?_
  have el : lidx_main_v24 (ix2 r c) k = ix2 r k := idx2_ext _ r k rfl rfl
  have er : idx_main_v23 (ridx_main_v24 (ix2 r c) k) = ix2 c k := idx2_ext _ c k rfl rfl
  rw [val_main_v23_apply, el, er, mean1_at]

/-- The bias at (r, c) is entry c of the bias: a row copied along the column. -/
theorem bias1_at (r : Fin 100000) (c : Fin 64) :
    val_main_v26 (F := Ideal) x3 (ix2 r c) = x3 (ix1 c) := by
  rw [val_main_v26_apply, val_main_v25_apply]
  exact congrArg x3 (idx1_ext _ c rfl)

/-- The root half at (r, c): row r of the features against row c of the root weights. -/
theorem self1_at (r : Fin 100000) (c : Fin 64) :
    val_main_v29 (F := Ideal) x0 x4 (ix2 r c) = ∑ k : Fin 128, x0 (ix2 r k) * x4 (ix2 c k) := by
  rw [val_main_v29_apply]
  refine Finset.sum_congr rfl fun k _ => ?_
  have el : lidx_main_v29 (ix2 r c) k = ix2 r k := idx2_ext _ r k rfl rfl
  have er : idx_main_v28 (ridx_main_v29 (ix2 r c) k) = ix2 c k := idx2_ext _ c k rfl rfl
  rw [val_main_v28_apply, el, er]

/-- The first cut-off's floor is the word of zero at every entry. -/
theorem floor1_at (j : S100000x64.Idx) : val_main_call0_v0 (F := Ideal) j = Cert.Sage.zero := by
  rw [val_main_call0_v0_apply, val_main_call0_cst_apply]
  rfl

/-- Entry (r, c) of the first layer is the specification's entry over the aggregated arrays. -/
theorem conv1_at (r : Fin 100000) (c : Fin 64) :
    val_main_v31 (F := Ideal) x0 x1 x2 x3 x4 (ix2 r c)
      = Cert.Sage.conv (N := 100000) (D := 128) (H := 64) (val_main_v13 (F := Ideal) x0 x1) (val_main_v17 (F := Ideal) x1)
          x0 x2 x3 x4 r c := by
  unfold Cert.Sage.conv
  rw [val_main_v31_apply, val_main_v30_apply, val_main_v27_apply, nbr1_at, bias1_at, self1_at, floor1_at]
  rfl

/-! ## The second layer, over the first layer's output -/

/-- The second layer's divisor at (r, k). -/
theorem den2_at (r : Fin 100000) (k : Fin 64) :
    val_main_v49 (F := Ideal) x1 (ix2 r k) = max (val_main_v45 (F := Ideal) x1 (ix1 r)) Cert.Sage.one := by
  have e : idx_main_v48 (idx_main_v49 (ix2 r k)) = ix1 r := idx1_ext _ r rfl
  rw [val_main_v49_apply, val_main_v48_apply, e, val_main_v47_apply, val_main_v46_apply, val_main_cst_9_apply]
  rfl

/-- The second layer's mean at (r, k). -/
theorem mean2_at (r : Fin 100000) (k : Fin 64) :
    val_main_v50 (F := Ideal) x0 x1 x2 x3 x4 (ix2 r k)
      = Ideal.div (val_main_v41 (F := Ideal) x0 x1 x2 x3 x4 (ix2 r k)) (max (val_main_v45 (F := Ideal) x1 (ix1 r)) Cert.Sage.one) := by
  rw [val_main_v50_apply, den2_at]
  rfl

/-- The second layer's neighbour half at (r, c). -/
theorem nbr2_at (r : Fin 100000) (c : Fin 64) :
    val_main_v52 (F := Ideal) x0 x1 x2 x3 x4 x5 (ix2 r c)
      = ∑ k : Fin 64, Ideal.div (val_main_v41 (F := Ideal) x0 x1 x2 x3 x4 (ix2 r k)) (max (val_main_v45 (F := Ideal) x1 (ix1 r)) Cert.Sage.one)
          * x5 (ix2 c k) := by
  rw [val_main_v52_apply]
  refine Finset.sum_congr rfl fun k _ => ?_
  have el : lidx_main_v52 (ix2 r c) k = ix2 r k := idx2_ext _ r k rfl rfl
  have er : idx_main_v51 (ridx_main_v52 (ix2 r c) k) = ix2 c k := idx2_ext _ c k rfl rfl
  rw [val_main_v51_apply, el, er, mean2_at]

/-- The second layer's bias at (r, c). -/
theorem bias2_at (r : Fin 100000) (c : Fin 64) :
    val_main_v54 (F := Ideal) x6 (ix2 r c) = x6 (ix1 c) := by
  rw [val_main_v54_apply, val_main_v53_apply]
  exact congrArg x6 (idx1_ext _ c rfl)

/-- The second layer's root half at (r, c): row r of the first layer's output against row c of the root weights. -/
theorem self2_at (r : Fin 100000) (c : Fin 64) :
    val_main_v57 (F := Ideal) x0 x1 x2 x3 x4 x7 (ix2 r c)
      = ∑ k : Fin 64, val_main_v31 (F := Ideal) x0 x1 x2 x3 x4 (ix2 r k) * x7 (ix2 c k) := by
  rw [val_main_v57_apply]
  refine Finset.sum_congr rfl fun k _ => ?_
  have el : lidx_main_v57 (ix2 r c) k = ix2 r k := idx2_ext _ r k rfl rfl
  have er : idx_main_v56 (ridx_main_v57 (ix2 r c) k) = ix2 c k := idx2_ext _ c k rfl rfl
  rw [val_main_v56_apply, el, er]

/-- The second cut-off's floor is the word of zero at every entry. -/
theorem floor2_at (j : S100000x64.Idx) : val_main_call1_v0 (F := Ideal) j = Cert.Sage.zero := by
  rw [val_main_call1_v0_apply, val_main_call1_cst_apply]
  rfl

/-- Entry (r, c) of the second layer is the specification's entry over its aggregated arrays and the first layer. -/
theorem conv2_at (r : Fin 100000) (c : Fin 64) :
    val_main_v59 (F := Ideal) x0 x1 x2 x3 x4 x5 x6 x7 (ix2 r c)
      = Cert.Sage.conv (N := 100000) (D := 64) (H := 64) (val_main_v41 (F := Ideal) x0 x1 x2 x3 x4) (val_main_v45 (F := Ideal) x1)
          (val_main_v31 (F := Ideal) x0 x1 x2 x3 x4) x5 x6 x7 r c := by
  unfold Cert.Sage.conv
  rw [val_main_v59_apply, val_main_v58_apply, val_main_v55_apply, nbr2_at, bias2_at, self2_at, floor2_at]
  rfl

/-! ## The read-out -/

/-- The read-out's product at row r: row r of the second layer against the one classifier row. -/
theorem out_at (r : Fin 100000) :
    val_main_v61 (F := Ideal) x0 x1 x2 x3 x4 x5 x6 x7 x8 (ix2 r (0 : Fin 1))
      = ∑ k : Fin 64, Cert.Sage.conv (N := 100000) (D := 64) (H := 64) (val_main_v41 (F := Ideal) x0 x1 x2 x3 x4)
          (val_main_v45 (F := Ideal) x1) (val_main_v31 (F := Ideal) x0 x1 x2 x3 x4) x5 x6 x7 r k * x8 (ix2 (0 : Fin 1) k) := by
  rw [val_main_v61_apply]
  refine Finset.sum_congr rfl fun k _ => ?_
  have el : lidx_main_v61 (ix2 r (0 : Fin 1)) k = ix2 r k := idx2_ext _ r k rfl rfl
  have er : idx_main_v60 (ridx_main_v61 (ix2 r (0 : Fin 1)) k) = ix2 (0 : Fin 1) k := idx2_ext _ 0 k rfl rfl
  rw [val_main_v60_apply, el, er, conv2_at]

/-- The read-out's bias at row r is the one bias entry. -/
theorem outbias_at (r : Fin 100000) :
    val_main_v63 (F := Ideal) x9 (ix2 r (0 : Fin 1)) = x9 (ix1 (0 : Fin 1)) := by
  rw [val_main_v63_apply, val_main_v62_apply]
  exact congrArg x9 (idx1_ext _ 0 rfl)

end Stages

/-- The first layer of the reference is the specification's layer over its aggregated sums and degrees. -/
theorem layer1_eq (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) :
    val_main_v31 (F := Ideal) x0 x1 x2 x3 x4
      = Cert.Sage.layer (N := 100000) (D := 128) (H := 64) (val_main_v13 (F := Ideal) x0 x1) (val_main_v17 (F := Ideal) x1) x0 x2 x3 x4 := by
  funext j
  obtain ⟨r, c, rfl⟩ : ∃ (r : Fin 100000) (c : Fin 64), j = ix2 r c := ⟨j 0, j 1, eq_ix2 j⟩
  exact conv1_at x0 x1 x2 x3 x4 r c

/-- Row r of the reference's result is the specification's second layer and read-out, over the second layer's
    aggregated sums and degrees and the first layer's output. -/
theorem logit_eq (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S1x64, .f32⟩ : BufTy).Contents (Elt Ideal)) (x9 : (⟨S1, .f32⟩ : BufTy).Contents (Elt Ideal)) (r : Fin 100000) :
    val_main_v64 (F := Ideal) x0 x1 x2 x3 x4 x5 x6 x7 x8 x9 (ix2 r (0 : Fin 1))
      = Cert.Sage.logit (N := 100000) (D := 64) (H := 64) (val_main_v41 (F := Ideal) x0 x1 x2 x3 x4) (val_main_v45 (F := Ideal) x1) (val_main_v31 (F := Ideal) x0 x1 x2 x3 x4) x5 x6 x7 x8 x9 r := by
  unfold Cert.Sage.logit
  rw [val_main_v64_apply, out_at, outbias_at]
  rfl

end Cert.ReferenceIdeal.RefValue

end
-- ==== Proof.Bridge.lean ====
/-
  The two programs' results are one array.

  The reference's stages that gather and sum along the edges are, name for name, the host computations the kernel
  program performs: the same operations with the same dimension numbers on the same inputs. So the reference's first
  layer is the first layer `H1` of the arguments that the first kernel leaves, its second aggregation is the sum of
  `H1`'s rows along the edges, and row by row its second layer and read-out are the column the second kernel leaves.
  Both programs end by viewing that column as a vector.
-/
import proofs.«153914_j43576738185797_1_alg».proof.Proof.KFold
import proofs.«153914_j43576738185797_1_alg».proof.Proof.RefValue

set_option maxRecDepth 16384

noncomputable section

namespace Cert.Bridge

open Idealize.ShloMosaic Idealize.ShloMosaic.TcCoe Idealize.SL.Sem Idealize.ShloMosaic.ValueIdx
open Cert.KernelIdeal.Glue Cert.ReferenceIdeal.Read

/-! ## The reference's sums along the edges are the named host computations -/

theorem ref_deg1 (x1 : (⟨Cert.ReferenceIdeal.S2x1600000, .i32⟩ : BufTy).Contents (Elt Ideal)) : val_main_v17 (F := Ideal) x1 = deg (dstV x1) := rfl
theorem ref_deg2 (x1 : (⟨Cert.ReferenceIdeal.S2x1600000, .i32⟩ : BufTy).Contents (Elt Ideal)) : val_main_v45 (F := Ideal) x1 = deg (dstV x1) := rfl
theorem ref_msg1 (x0 : (⟨Cert.ReferenceIdeal.S100000x128, .f32⟩ : BufTy).Contents (Elt Ideal)) (x1 : (⟨Cert.ReferenceIdeal.S2x1600000, .i32⟩ : BufTy).Contents (Elt Ideal)) : val_main_v13 (F := Ideal) x0 x1 = agg128 x0 (srcV x1) (dstV x1) := rfl
theorem ref_msg2 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S64x128, .f32⟩ : BufTy).Contents (Elt Ideal)) (x3 : (⟨Cert.ReferenceIdeal.S64, .f32⟩ : BufTy).Contents (Elt Ideal)) (x4 : (⟨Cert.ReferenceIdeal.S64x128, .f32⟩ : BufTy).Contents (Elt Ideal)) :
    val_main_v41 (F := Ideal) x0 x1 x2 x3 x4 = agg64 (val_main_v31 (F := Ideal) x0 x1 x2 x3 x4) (srcV x1) (dstV x1) := rfl

/-- The reference's result, from arguments equal to the kernel program's, is the kernel program's result. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v65 m' c
      = Cert.KernelIdeal.Gen.W5 m ρ c (Proc.devRef .tc Cert.KernelIdeal.main_v31) := by
  rw [val_main_v65_eq, h0, h1, h2, h3, h4, h5, h6, h7, h8, h9]
  refine Eq.trans ?_ (Cert.KernelIdeal.Fold.out_eq m ρ c).symm
  unfold val_main_v65
  refine congrArg (fun f : Cert.KernelIdeal.S100000x1.Idx → EReal => shapeCast Cert.KernelIdeal.S100000 f Cert.KernelIdeal.Facts₀.shapeCasts_S100000x1_S100000) ?_
  funext i
  obtain ⟨r, u, rfl⟩ : ∃ (r : Fin 100000) (u : Fin 1), i = ix2 r u := ⟨i 0, i 1, eq_ix2 i⟩
  obtain rfl : u = 0 := Subsingleton.elim _ _
  rw [Cert.ReferenceIdeal.RefValue.logit_eq, ref_msg2, ref_deg2, Cert.ReferenceIdeal.RefValue.layer1_eq, ref_msg1, ref_deg1]
  rfl

end Cert.Bridge

end
-- ==== Proof.lean ====
/-
  A two-layer graph convolution with mean aggregation and a linear read-out, as a tiled kernel program and as a plain
  array program: over the extended reals the two compute the same vector of 100000 numbers.

  Both programs first sum, for every node, the feature rows of its in-neighbours and count those neighbours; these
  sums along the edges are the same host operations in both. A layer then maps row r of the sums, the count and the
  node's own row to  relu ((sum / max count 1) · Wlᵀ + bl + own · Wrᵀ).  The kernel program computes a layer 4000
  rows at a time, in 25 blocks, rounding the factors of its two products to a shorter float format first; the array
  program computes it for all rows at once. Over the extended reals a change of format is the identity, a product into
  a zero accumulator and a plain matrix product are both the sum over the contracted index, and a layer's row depends
  on that row of its inputs only, so the 25 blocks are the blocks of the whole layer. The second kernel also folds in
  the read-out  h · Wcᵀ + bc,  as a product with the one classifier row summed along the row; the array program takes
  a matrix product with that row transposed: the same sum. No law that could fail at an infinity is used (the two sides
  agree sum by sum and factor by factor), so the inputs' finiteness is never opened.

  The three frame claims: the two kernel programs' by their generated frame proofs; the array program's is its generated
  run with the result forgotten. No operation was rewritten in idealizing the kernel program, so that claim is `True`.
  The value claim: the kernel program's run with every surviving buffer named (Proof/KRun.lean), its result traced back
  to the arguments (Proof/KFold.lean over Proof/KArr0.lean, Proof/KArr1.lean and the bodies in Proof/KBody.lean), the
  array program's result read stage by stage (Proof/RefValue.lean), and the two met in Proof/Bridge.lean at the
  specification Proof/Spec.lean.
-/
import proofs.«153914_j43576738185797_1_alg».proof.Defs
import proofs.«153914_j43576738185797_1_alg».proof.Proof.Gen.Kernel
import proofs.«153914_j43576738185797_1_alg».proof.Proof.Gen.Kernel.Frame
import proofs.«153914_j43576738185797_1_alg».proof.Proof.Gen.KernelIdeal
import proofs.«153914_j43576738185797_1_alg».proof.Proof.Gen.KernelIdeal.Frame
import proofs.«153914_j43576738185797_1_alg».proof.Proof.Gen.ReferenceIdeal
import proofs.«153914_j43576738185797_1_alg».proof.Proof.Gen.ReferenceIdeal.Run
import proofs.«153914_j43576738185797_1_alg».proof.Proof.Gen.ReferenceIdeal.Read
import proofs.«153914_j43576738185797_1_alg».proof.Proof.Gen.Pre_finite_inputs
import proofs.«153914_j43576738185797_1_alg».proof.Proof.KRun
import proofs.«153914_j43576738185797_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The array program's run, with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Idealizing the kernel program rewrote no operation. -/
theorem preserves : Cert.preserves_Kernel_KernelIdeal := trivial

/-- From memories agreeing on the arguments both programs run, and the array program's result is the kernel
    program's: the last boundary's contents at the result buffer. -/
theorem algebraic : Cert.algebraic_KernelIdeal_ReferenceIdeal := by
  intro m ρ m' ρ' _ hagree
  refine ⟨fun c => Cert.KernelIdeal.Gen.W5 m ρ c (Proc.devRef .tc Cert.KernelIdeal.main_v31),
    Cert.KernelIdeal.Out.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  exact Cert.Bridge.result_eq m ρ m' c h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
